-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x1024 : Shape := ⟨2, ![8192, 1024]⟩
abbrev S512x4096 : Shape := ⟨2, ![512, 4096]⟩
abbrev S1024x4096 : Shape := ⟨2, ![1024, 4096]⟩
abbrev S4096 : Shape := ⟨1, ![4096]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S512x4096 : S_.BroadcastsInDim S512x4096 (![] : Fin 0 → Fin S512x4096.rank)
  reducesTo_S512x4096_S_d0_1 : S512x4096.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S1024x4096 .f32) (main_arg5 : FVec F S4096 .f32) (main_v13 : IVec S_ 1) (main_v16 : IVec S512x4096 1) : IVec S_ 1 :=
  let main_c_5 : IVec S_ 1 := constantI S_ 1 1#1
  let main_v17 : IVec S_ 1 := (fun x v => Host.reduce IntOp.andi x v reducesTo_S512x4096_S_d0_1 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S8192x512 .f32) (main_arg1 : FVec F S8192x1024 .f32) (main_arg2 : FVec F S8192x1024 .f32) (main_arg3 : FVec F S512x4096 .f32) (main_arg4 : FVec F S1024x4096 .f32) (main_arg5 : FVec F S4096 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S512x4096 .f32 := Host.absf main_arg3
  let main_cst_4 : FVec F S_ .f32 := constant S_ .f32 0x7F800000#32
  let main_v15 : FVec F S512x4096 .f32 := broadcastInDim S512x4096 ![] bcast_S_S512x4096 main_cst_4
  let main_v16 : IVec S512x4096 1 := cmpf .olt main_v14 main_v15
  fn_part1 (F := F) main_arg4 main_arg5 main_v13 main_v16
-- ==== Kernel.lean ====
abbrev S8192x512 : Shape := ⟨2, ![8192, 512]⟩
abbrev S8192x1024 : Shape := ⟨2, ![8192, 1024]⟩
abbrev S512x4096 : Shape := ⟨2, ![512, 4096]⟩
abbrev S1024x4096 : Shape := ⟨2, ![1024, 4096]⟩
abbrev S4096 : Shape := ⟨1, ![4096]⟩
abbrev S512x2048 : Shape := ⟨2, ![512, 2048]⟩
abbrev S1024x2048 : Shape := ⟨2, ![1024, 2048]⟩
abbrev S2048 : Shape := ⟨1, ![2048]⟩
abbrev S1x2048 : Shape := ⟨2, ![1, 2048]⟩
abbrev S512x512 : Shape := ⟨2, ![512, 512]⟩
abbrev S512x1024 : Shape := ⟨2, ![512, 1024]⟩

abbrev nBuf : Space → Nat
  | .hbm => 16
  | .vmem => 13
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x1024, .f32⟩
  | .hbm, ⟨3, _⟩ => ⟨S512x4096, .f32⟩
  | .hbm, ⟨4, _⟩ => ⟨S1024x4096, .f32⟩
  | .hbm, ⟨5, _⟩ => ⟨S4096, .f32⟩
  | .hbm, ⟨6, _⟩ => ⟨S512x2048, .f32⟩
  | .hbm, ⟨7, _⟩ => ⟨S512x2048, .bf16⟩
  | .hbm, ⟨8, _⟩ => ⟨S1024x2048, .f32⟩
  | .hbm, ⟨9, _⟩ => ⟨S1024x2048, .bf16⟩
  | .hbm, ⟨10, _⟩ => ⟨S2048, .f32⟩
  | .hbm, ⟨11, _⟩ => ⟨S1x2048, .f32⟩
  | .hbm, ⟨12, _⟩ => ⟨S8192x512, .bf16⟩
  | .hbm, ⟨13, _⟩ => ⟨S8192x1024, .bf16⟩
  | .hbm, ⟨14, _⟩ => ⟨S8192x1024, .f32⟩
  | .hbm, ⟨15, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x2048, .bf16⟩
  | .local _ .vmem, ⟨7, _⟩ => ⟨S1024x2048, .bf16⟩
  | .local _ .vmem, ⟨8, _⟩ => ⟨S1x2048, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S512x4096_S512x2048_0_0 : S512x4096.Slices ![0, 0] S512x2048
  bitsLt_bf16_f32 : FTy.bits .bf16 < FTy.bits .f32
  slices_S1024x4096_S1024x2048_0_0 : S1024x4096.Slices ![0, 0] S1024x2048
  slices_S4096_S2048_0 : S4096.Slices ![0] S2048
  shapeCasts_S2048_S1x2048 : S2048.ShapeCasts S1x2048
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x1024 : S512x2048.Slices ![0, 0] S512x1024
  slices_S512x2048_o0_1024_S512x1024 : S512x2048.Slices ![0, 1024] S512x1024
  dot_S512x512_S512x2048_S512x2048_1_0_0_1_n_n_wf : DotDims.WF S512x512 S512x2048 S512x2048 [1] [0] [0] [1] [] []
  dot_S512x1024_S1024x2048_S512x2048_1_0_0_1_n_n_wf : DotDims.WF S512x1024 S1024x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .bf16 = 32 ∨ (Rect.block (s := S8192x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .bf16 = 32 ∨ (Rect.block (s := S8192x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .f32 = 32 ∨ (Rect.block (s := S8192x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .bf16 = 32 ∨ (Rect.block (s := S512x2048) S512x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S1024x2048.size a
  hwx0_4 : ∀ i : grid0.Coords, EltTy.bits .bf16 = 32 ∨ (Rect.block (s := S1024x2048) S1024x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x1024.size a
  hwx0_6 : ∀ i : grid0.Coords, EltTy.bits .f32 = 32 ∨ (Rect.block (s := S8192x1024) S512x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .f32 = 32 ∨ (Rect.block (s := S8192x1024) S512x1024.size (cc0_transform_7 i) (hinb0_7 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_v6) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8_0) S512x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_1) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x1024 : Shape := ⟨2, ![8192, 1024]⟩
abbrev S512x4096 : Shape := ⟨2, ![512, 4096]⟩
abbrev S1024x4096 : Shape := ⟨2, ![1024, 4096]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x1024, .f32⟩
  | .hbm, ⟨3, _⟩ => ⟨S512x4096, .f32⟩
  | .hbm, ⟨4, _⟩ => ⟨S1024x4096, .f32⟩
  | .hbm, ⟨5, _⟩ => ⟨S4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S1x4096, .f32⟩
  | .hbm, ⟨10, _⟩ => ⟨S8192x4096, .f32⟩
  | .hbm, ⟨11, _⟩ => ⟨S8192x4096, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x512_S512x4096_S8192x4096_1_0_0_1_n_n_wf : DotDims.WF S8192x512 S512x4096 S8192x4096 [1] [0] [0] [1] [] []
  dot_S8192x1024_S1024x4096_S8192x4096_1_0_0_1_n_n_wf : DotDims.WF S8192x1024 S1024x4096 S8192x4096 [1] [0] [0] [1] [] []

variable [Facts₀]

def dot_S8192x512_S512x4096_S8192x4096_1_0_0_1_n_n : DotDims S8192x512 S512x4096 S8192x4096 where
  lhsContracting := [1]
  rhsContracting := [0]
  lhsNonContracting := [0]
  rhsNonContracting := [1]
  lhsBatch := []
  rhsBatch := []
  wf := dot_S8192x512_S512x4096_S8192x4096_1_0_0_1_n_n_wf
def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.HostPrefix.lean ====
/-
  The five arrays the launch stages that are not arguments themselves, as the region finds them, read at an index.  Before the
  launch the host rounds x and h to bf16, keeps the first 2048 columns of Wx and of Wh and rounds them to bf16, and keeps the first
  2048 bias entries as one row.  On the extended reals a rounding is the identity, so these are x and h themselves, the left halves
  of Wx and Wh, and the first half of b laid as a row.
-/
import proofs.«166895_j44865228374504_1_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.Lstm.Kern

open Cert.KernelIdeal Cert.KernelIdeal.Gen Idealize.ShloMosaic Idealize.ShloMosaic.TcCoe
open Idealize.ShloMosaic.ValueIdx Idealize.ShloMosaic.StableHlo Idealize.SL.Sem

variable (m : (ℓ : Loc nD τ sig) → Buf (Elt Ideal) ℓ)

/-- The staged x is the argument x. -/
theorem entry_x (c : Dev nD) :
    (V m c main_v6 : S8192x512.Idx → EReal) = (m ((c : Thread nD τ).loc main_arg0) : S8192x512.Idx → EReal) := by
  dsimp only [V, hostOps0]; after_results; rfl

/-- The staged h is the argument h. -/
theorem entry_h (c : Dev nD) :
    (V m c main_v7 : S8192x1024.Idx → EReal) = (m ((c : Thread nD τ).loc main_arg1) : S8192x1024.Idx → EReal) := by
  dsimp only [V, hostOps0]; after_results; rfl

/-- The staged input weights are the first 2048 columns of Wx. -/
theorem entry_wx (c : Dev nD) (k : Fin 512) (j : Fin 2048) (j' : Fin 4096) (hj : j'.val = j.val) :
    (V m c main_v1 : S512x2048.Idx → EReal) (ix2 k j) = (m ((c : Thread nD τ).loc main_arg3) : S512x4096.Idx → EReal) (ix2 k j') := by
  have e : (V m c main_v1 : S512x2048.Idx → EReal)
      = extractStridedSlice S512x2048 ![0, 0] (m ((c : Thread nD τ).loc main_arg3) : S512x4096.Idx → EReal) Facts₀.slices_S512x4096_S512x2048_0_0 := by
    dsimp only [V, hostOps0]; after_results; rfl
  rw [e]
  exact slice2_axis1_apply 0 _ _ k j j' (by rw [hj, Nat.zero_add])

/-- The staged recurrent weights are the first 2048 columns of Wh. -/
theorem entry_wh (c : Dev nD) (k : Fin 1024) (j : Fin 2048) (j' : Fin 4096) (hj : j'.val = j.val) :
    (V m c main_v3 : S1024x2048.Idx → EReal) (ix2 k j) = (m ((c : Thread nD τ).loc main_arg4) : S1024x4096.Idx → EReal) (ix2 k j') := by
  have e : (V m c main_v3 : S1024x2048.Idx → EReal)
      = extractStridedSlice S1024x2048 ![0, 0] (m ((c : Thread nD τ).loc main_arg4) : S1024x4096.Idx → EReal) Facts₀.slices_S1024x4096_S1024x2048_0_0 := by
    dsimp only [V, hostOps0]; after_results; rfl
  rw [e]
  exact slice2_axis1_apply 0 _ _ k j j' (by rw [hj, Nat.zero_add])

/-- The staged bias row holds the first 2048 bias entries. -/
theorem entry_b (c : Dev nD) (j : Fin 2048) (j' : Fin 4096) (hj : j'.val = j.val) :
    (V m c main_v5 : S1x2048.Idx → EReal) (ix2 (0 : Fin 1) j) = (m ((c : Thread nD τ).loc main_arg5) : S4096.Idx → EReal) (ix1 j') := by
  have e : (V m c main_v5 : S1x2048.Idx → EReal)
      = shapeCast S1x2048 (extractStridedSlice S2048 ![0] (m ((c : Thread nD τ).loc main_arg5) : S4096.Idx → EReal) Facts₀.slices_S4096_S2048_0) Facts₀.shapeCasts_S2048_S1x2048 := by
    dsimp only [V, hostOps0]; after_results; rfl
  rw [e, shapeCast_a_1a_apply]
  exact extractStridedSlice_apply _ _ _ _ _ (fun ax => by
    match ax with
    | ⟨0, _⟩ => show j'.val = 0 + j.val; rw [hj, Nat.zero_add])

end Cert.Lstm.Kern

end
-- ==== Proof.Gates.lean ====
/-
  The gate block one grid point computes, read at an index.  From its five loaded blocks — 512 rows of x and of h, the first 2048
  columns of Wx and of Wh, and the first 2048 bias entries as one row — the body forms  x·Wx + h·Wh  (two matrix products into zero
  accumulators, added) and adds the bias row broadcast down the 512 rows.  On the extended reals a product into a zero accumulator is
  the plain sum over the contracted axis, so entry (p, j) of the block is
      (Σ_k x[p,k] · Wx[k,j] + Σ_k h[p,k] · Wh[k,j]) + b[0,j].
-/
import proofs.«166895_j44865228374504_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Lstm.Kern

open Cert.KernelIdeal Cert.KernelIdeal.Gen Idealize.ShloMosaic Idealize.ShloMosaic.ValueIdx

theorem xw_l0 (i : S512x2048.Idx) (q : dot_S512x512_S512x2048_S512x2048_1_0_0_1_n_n.contr.Idx) : (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide),
    dif_pos (show (0 : Fin S512x512.rank) ∈ dot_S512x512_S512x2048_S512x2048_1_0_0_1_n_n.lhsNonContracting by decide)]
  rfl
theorem xw_l1 (i : S512x2048.Idx) (q : dot_S512x512_S512x2048_S512x2048_1_0_0_1_n_n.contr.Idx) : (dot_S512x512_S512x2048_S512x2048_1_0_0_1_n_n.lhsIdx i q 1).val = (q ⟨0, by decide⟩).val :=
  dot_S512x512_S512x2048_S512x2048_1_0_0_1_n_n.lhsIdx_val_of_single rfl i q
theorem xw_r0 (i : S512x2048.Idx) (q : dot_S512x512_S512x2048_S512x2048_1_0_0_1_n_n.contr.Idx) : (dot_S512x512_S512x2048_S512x2048_1_0_0_1_n_n.rhsIdx i q 0).val = (q ⟨0, by decide⟩).val :=
  dot_S512x512_S512x2048_S512x2048_1_0_0_1_n_n.rhsIdx_val_of_single rfl i q
theorem xw_r1 (i : S512x2048.Idx) (q : dot_S512x512_S512x2048_S512x2048_1_0_0_1_n_n.contr.Idx) : (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide),
    dif_pos (show (1 : Fin S512x2048.rank) ∈ dot_S512x512_S512x2048_S512x2048_1_0_0_1_n_n.rhsNonContracting by decide)]
  rfl

/-- The input product: entry (p, j) of a [512,512] block times a [512,2048] block, accumulated from zero, is the sum over the 512 contracted positions. -/
theorem xw_apply (A : FVec Ideal S512x512 .bf16) (W : FVec Ideal S512x2048 .bf16) (p : Fin 512) (j : Fin 2048) :
    matmul dot_S512x512_S512x2048_S512x2048_1_0_0_1_n_n none A W (constant S512x2048 .f32 0x00000000#32) (ix2 p j)
      = ∑ k : Fin 512, A (ix2 p k) * W (ix2 k j) := by
  refine (Ideal.matmul_constant_zero_apply dot_S512x512_S512x2048_S512x2048_1_0_0_1_n_n none A W (ix2 p j)).trans ?_
  rw [← Equiv.sum_comp (contrEquiv1 dot_S512x512_S512x2048_S512x2048_1_0_0_1_n_n 512 rfl rfl).symm]
  refine Finset.sum_congr rfl fun k _ => ?_
  have hk := contrEquiv1_symm_val dot_S512x512_S512x2048_S512x2048_1_0_0_1_n_n 512 rfl rfl k
  have el : dot_S512x512_S512x2048_S512x2048_1_0_0_1_n_n.lhsIdx (ix2 p j) ((contrEquiv1 dot_S512x512_S512x2048_S512x2048_1_0_0_1_n_n 512 rfl rfl).symm k) = ix2 p k :=
    funext fun a => Fin.ext (by
      match a with
      | ⟨0, _⟩ => exact xw_l0 _ _
      | ⟨1, _⟩ => exact (xw_l1 _ _).trans hk)
  have er : dot_S512x512_S512x2048_S512x2048_1_0_0_1_n_n.rhsIdx (ix2 p j) ((contrEquiv1 dot_S512x512_S512x2048_S512x2048_1_0_0_1_n_n 512 rfl rfl).symm k) = ix2 k j :=
    funext fun a => Fin.ext (by
      match a with
      | ⟨0, _⟩ => exact (xw_r0 _ _).trans hk
      | ⟨1, _⟩ => exact xw_r1 _ _)
  rw [el, er]

theorem hw_l0 (i : S512x2048.Idx) (q : dot_S512x1024_S1024x2048_S512x2048_1_0_0_1_n_n.contr.Idx) : (dot_S512x1024_S1024x2048_S512x2048_1_0_0_1_n_n.lhsIdx i q 0).val = (i 0).val := by
  unfold DotDims.lhsIdx
  rw [dif_neg (show ¬(0 : Fin S512x1024.rank) ∈ dot_S512x1024_S1024x2048_S512x2048_1_0_0_1_n_n.lhsBatch by decide),
    dif_pos (show (0 : Fin S512x1024.rank) ∈ dot_S512x1024_S1024x2048_S512x2048_1_0_0_1_n_n.lhsNonContracting by decide)]
  rfl
theorem hw_l1 (i : S512x2048.Idx) (q : dot_S512x1024_S1024x2048_S512x2048_1_0_0_1_n_n.contr.Idx) : (dot_S512x1024_S1024x2048_S512x2048_1_0_0_1_n_n.lhsIdx i q 1).val = (q ⟨0, by decide⟩).val :=
  dot_S512x1024_S1024x2048_S512x2048_1_0_0_1_n_n.lhsIdx_val_of_single rfl i q
theorem hw_r0 (i : S512x2048.Idx) (q : dot_S512x1024_S1024x2048_S512x2048_1_0_0_1_n_n.contr.Idx) : (dot_S512x1024_S1024x2048_S512x2048_1_0_0_1_n_n.rhsIdx i q 0).val = (q ⟨0, by decide⟩).val :=
  dot_S512x1024_S1024x2048_S512x2048_1_0_0_1_n_n.rhsIdx_val_of_single rfl i q
theorem hw_r1 (i : S512x2048.Idx) (q : dot_S512x1024_S1024x2048_S512x2048_1_0_0_1_n_n.contr.Idx) : (dot_S512x1024_S1024x2048_S512x2048_1_0_0_1_n_n.rhsIdx i q 1).val = (i 1).val := by
  unfold DotDims.rhsIdx
  rw [dif_neg (show ¬(1 : Fin S1024x2048.rank) ∈ dot_S512x1024_S1024x2048_S512x2048_1_0_0_1_n_n.rhsBatch by decide),
    dif_pos (show (1 : Fin S1024x2048.rank) ∈ dot_S512x1024_S1024x2048_S512x2048_1_0_0_1_n_n.rhsNonContracting by decide)]
  rfl

/-- The recurrent product: entry (p, j) of a [512,1024] block times a [1024,2048] block, accumulated from zero, is the sum over the 1024 contracted positions. -/
theorem hw_apply (A : FVec Ideal S512x1024 .bf16) (W : FVec Ideal S1024x2048 .bf16) (p : Fin 512) (j : Fin 2048) :
    matmul dot_S512x1024_S1024x2048_S512x2048_1_0_0_1_n_n none A W (constant S512x2048 .f32 0x00000000#32) (ix2 p j)
      = ∑ k : Fin 1024, A (ix2 p k) * W (ix2 k j) := by
  refine (Ideal.matmul_constant_zero_apply dot_S512x1024_S1024x2048_S512x2048_1_0_0_1_n_n none A W (ix2 p j)).trans ?_
  rw [← Equiv.sum_comp (contrEquiv1 dot_S512x1024_S1024x2048_S512x2048_1_0_0_1_n_n 1024 rfl rfl).symm]
  refine Finset.sum_congr rfl fun k _ => ?_
  have hk := contrEquiv1_symm_val dot_S512x1024_S1024x2048_S512x2048_1_0_0_1_n_n 1024 rfl rfl k
  have el : dot_S512x1024_S1024x2048_S512x2048_1_0_0_1_n_n.lhsIdx (ix2 p j) ((contrEquiv1 dot_S512x1024_S1024x2048_S512x2048_1_0_0_1_n_n 1024 rfl rfl).symm k) = ix2 p k :=
    funext fun a => Fin.ext (by
      match a with
      | ⟨0, _⟩ => exact hw_l0 _ _
      | ⟨1, _⟩ => exact (hw_l1 _ _).trans hk)
  have er : dot_S512x1024_S1024x2048_S512x2048_1_0_0_1_n_n.rhsIdx (ix2 p j) ((contrEquiv1 dot_S512x1024_S1024x2048_S512x2048_1_0_0_1_n_n 1024 rfl rfl).symm k) = ix2 k j :=
    funext fun a => Fin.ext (by
      match a with
      | ⟨0, _⟩ => exact (hw_r0 _ _).trans hk
      | ⟨1, _⟩ => exact hw_r1 _ _)
  rw [el, er]

/-- Entry (p, j) of the gate block. -/
theorem gates_block_apply (P0 : Vec Ideal S512x512 .bf16) (P1 : Vec Ideal S512x1024 .bf16) (P2 : Vec Ideal S512x2048 .bf16)
    (P3 : Vec Ideal S1024x2048 .bf16) (P4 : Vec Ideal S1x2048 .f32) (p : Fin 512) (j : Fin 2048) :
    k0_pay1 (F := Ideal) P0 P1 P2 P3 P4 (ix2 p j)
      = ((∑ k : Fin 512, P0 (ix2 p k) * P2 (ix2 k j)) + ∑ k : Fin 1024, P1 (ix2 p k) * P3 (ix2 k j)) + P4 (ix2 (0 : Fin 1) j) := by
  unfold k0_pay1
  simp only [shapeCast_self]
  rw [addf_apply, addf_apply, xw_apply, hw_apply, broadcastTo_1b_ab_apply]

end Cert.Lstm.Kern

end
-- ==== Proof.PointBlocks.lean ====
/-
  What one grid point leaves in its two output blocks, entry by entry, from the six blocks it is given: 512 rows of x, of h and
  of c, the two weight blocks and the bias row.  With  z(p, j)  the gate block's entry (the two matrix products plus the bias row),
  g = tanh z(p, q)  and  s = logistic z(p, 1024 + q), the cell block's entry (p, q) is  s · (g + c[p,q])  and the hidden block's is
  tanh (s · (g + c[p,q])) · s.
-/
import proofs.«166895_j44865228374504_1_alg».proof.Proof.Gen.KernelIdeal.Value
import proofs.«166895_j44865228374504_1_alg».proof.Proof.Gates

noncomputable section

open scoped BigOperators

namespace Cert.Lstm.Kern

open Cert.KernelIdeal Cert.KernelIdeal.Gen Idealize.ShloMosaic Idealize.ShloMosaic.ValueIdx

theorem hz : (![0, 0] : Fin 2 → Nat) = fun _ => 0 := funext fun a => by fin_cases a <;> rfl

/-- Entry (p, j) of the gate block, from the blocks of x, h, Wx, Wh and the bias row. -/
def blockGate (x0 : Vec Ideal S512x512 .bf16) (x1 : Vec Ideal S512x1024 .bf16) (x3 : Vec Ideal S512x2048 .bf16)
    (x4 : Vec Ideal S1024x2048 .bf16) (x5 : Vec Ideal S1x2048 .f32) (p : Fin 512) (j : Fin 2048) : EReal :=
  ((∑ k : Fin 512, x0 (ix2 p k) * x3 (ix2 k j)) + ∑ k : Fin 1024, x1 (ix2 p k) * x4 (ix2 k j)) + x5 (ix2 (0 : Fin 1) j)

/-- The candidate's column of the gate block for hidden unit `q`. -/
abbrev bcolG (q : Fin 1024) : Fin 2048 := ⟨q.val, by have := q.isLt; omega⟩
/-- The input gate's column of the gate block for hidden unit `q`. -/
abbrev bcolI (q : Fin 1024) : Fin 2048 := ⟨q.val + 1024, by have := q.isLt; omega⟩

/-- The cell block one point leaves, at (p, q): s · (g + c). -/
theorem cell_block_apply (x0 : Vec Ideal S512x512 .bf16) (x1 : Vec Ideal S512x1024 .bf16) (x2 : Vec Ideal S512x1024 .f32)
    (x3 : Vec Ideal S512x2048 .bf16) (x4 : Vec Ideal S1024x2048 .bf16) (x5 : Vec Ideal S1x2048 .f32) (p : Fin 512) (q : Fin 1024) :
    out0_7 x0 x1 x2 x3 x4 x5 (ix2 p q)
      = Ideal.logistic (blockGate x0 x1 x3 x4 x5 p (bcolI q)) * (Ideal.tanh (blockGate x0 x1 x3 x4 x5 p (bcolG q)) + x2 (ix2 p q)) := by
  unfold out0_7
  rw [Value.canon7_eq]
  simp only [View.ld_unit_zero (S := S512x512) hz, View.ld_unit_zero (S := S512x1024) hz,
    View.ld_unit_zero (S := S512x2048) hz, View.ld_unit_zero (S := S1024x2048) hz, View.ld_unit_zero (S := S1x2048) hz]
  have e0 : Value.ix7_0 (ix2 p q) = ix2 p (bcolI q) := funext fun a => by
    match a with | ⟨0, _⟩ => rfl | ⟨1, _⟩ => rfl
  have e1 : Value.ix7_1 (ix2 p q) = ix2 p (bcolG q) := funext fun a => by
    match a with | ⟨0, _⟩ => rfl | ⟨1, _⟩ => rfl
  have e2 : Value.ix7_2 (ix2 p q) = ix2 p q := funext fun a => by
    match a with | ⟨0, _⟩ => rfl | ⟨1, _⟩ => rfl
  show FloatOps.mulf (FloatOps.logistic (k0_pay1 x0 x1 x3 x4 x5 (Value.ix7_0 (ix2 p q))))
      (FloatOps.addf (FloatOps.tanh (k0_pay1 x0 x1 x3 x4 x5 (Value.ix7_1 (ix2 p q)))) (x2 (Value.ix7_2 (ix2 p q)))) = _
  rw [e0, e1, e2, gates_block_apply, gates_block_apply]
  rfl

/-- The hidden block one point leaves, at (p, q): tanh (s · (g + c)) · s. -/
theorem hidden_block_apply (x0 : Vec Ideal S512x512 .bf16) (x1 : Vec Ideal S512x1024 .bf16) (x2 : Vec Ideal S512x1024 .f32)
    (x3 : Vec Ideal S512x2048 .bf16) (x4 : Vec Ideal S1024x2048 .bf16) (x5 : Vec Ideal S1x2048 .f32) (p : Fin 512) (q : Fin 1024) :
    out0_6 x0 x1 x2 x3 x4 x5 (ix2 p q)
      = Ideal.tanh (Ideal.logistic (blockGate x0 x1 x3 x4 x5 p (bcolI q)) * (Ideal.tanh (blockGate x0 x1 x3 x4 x5 p (bcolG q)) + x2 (ix2 p q)))
          * Ideal.logistic (blockGate x0 x1 x3 x4 x5 p (bcolI q)) := by
  unfold out0_6
  rw [Value.canon6_eq]
  simp only [View.ld_unit_zero (S := S512x512) hz, View.ld_unit_zero (S := S512x1024) hz,
    View.ld_unit_zero (S := S512x2048) hz, View.ld_unit_zero (S := S1024x2048) hz, View.ld_unit_zero (S := S1x2048) hz]
  have e0 : Value.ix6_0 (ix2 p q) = ix2 p (bcolI q) := funext fun a => by
    match a with | ⟨0, _⟩ => rfl | ⟨1, _⟩ => rfl
  have e1 : Value.ix6_1 (ix2 p q) = ix2 p (bcolG q) := funext fun a => by
    match a with | ⟨0, _⟩ => rfl | ⟨1, _⟩ => rfl
  have e2 : Value.ix6_2 (ix2 p q) = ix2 p q := funext fun a => by
    match a with | ⟨0, _⟩ => rfl | ⟨1, _⟩ => rfl
  have e3 : Value.ix6_3 (ix2 p q) = ix2 p (bcolI q) := funext fun a => by
    match a with | ⟨0, _⟩ => rfl | ⟨1, _⟩ => rfl
  show FloatOps.mulf (FloatOps.tanh (FloatOps.mulf (FloatOps.logistic (k0_pay1 x0 x1 x3 x4 x5 (Value.ix6_0 (ix2 p q))))
      (FloatOps.addf (FloatOps.tanh (k0_pay1 x0 x1 x3 x4 x5 (Value.ix6_1 (ix2 p q)))) (x2 (Value.ix6_2 (ix2 p q))))))
      (FloatOps.logistic (k0_pay1 x0 x1 x3 x4 x5 (Value.ix6_3 (ix2 p q)))) = _
  rw [e0, e1, e2, e3, gates_block_apply, gates_block_apply]
  rfl

end Cert.Lstm.Kern

end
-- ==== Proof.LibLogistic.lean ====
/-
  The logistic function on the extended reals: logistic z = 1 / (1 + exp (-z)), with value 0 at -∞ and 1 at +∞.

  * It takes values in [0, 1] only (`logistic_nonneg`, `logistic_le_one`, `logistic_ne_top`, `logistic_ne_bot`): it is never infinite,
    whatever its argument.
  * Hence multiplying by it distributes over EVERY sum of two extended reals, infinite or opposite-infinite terms included
    (`logistic_mul_add`, `add_mul_logistic`) — the step that lets a gated sum  s · (g + c)  be compared with  s · g + s · c  with no
    finiteness hypothesis on g or c.
  * The host's spelling  1 / (1 + exp (-z))  with the f32 literal one is the logistic function (`hostSigmoid_eq_logistic`).
-/
import Idealize.ShloMosaic.PureOps.Ideal
import Idealize.ShloMosaic.Lib.IdealHost

noncomputable section

namespace LibLogistic

open Idealize.ShloMosaic

/-- The logistic function is non-negative at every extended real. -/
theorem logistic_nonneg (x : EReal) : 0 ≤ Ideal.logistic x := by
  induction x using EReal.rec with
  | bot => rw [Ideal.logistic_bot]
  | coe r =>
    rw [Ideal.logistic_coe]
    have : (0 : ℝ) ≤ (1 + Real.exp (-r))⁻¹ := by positivity
    exact_mod_cast this
  | top => rw [Ideal.logistic_top]; exact zero_le_one

/-- The logistic function is at most one at every extended real. -/
theorem logistic_le_one (x : EReal) : Ideal.logistic x ≤ 1 := by
  induction x using EReal.rec with
  | bot => rw [Ideal.logistic_bot]; exact zero_le_one
  | coe r =>
    rw [Ideal.logistic_coe]
    have h1 : (1 : ℝ) ≤ 1 + Real.exp (-r) := by have := Real.exp_pos (-r); linarith
    have : (1 + Real.exp (-r))⁻¹ ≤ (1 : ℝ) := inv_le_one_of_one_le₀ h1
    exact_mod_cast this
  | top => rw [Ideal.logistic_top]

/-- The logistic function is never +∞. -/
theorem logistic_ne_top (x : EReal) : Ideal.logistic x ≠ ⊤ := by
  induction x using EReal.rec with
  | bot => rw [Ideal.logistic_bot]; exact EReal.zero_ne_top
  | coe r => rw [Ideal.logistic_coe]; exact EReal.coe_ne_top _
  | top => rw [Ideal.logistic_top, ← EReal.coe_one]; exact EReal.coe_ne_top 1

/-- The logistic function is never -∞. -/
theorem logistic_ne_bot (x : EReal) : Ideal.logistic x ≠ ⊥ :=
  fun h => absurd (h ▸ logistic_nonneg x) (by simp)

/-- Multiplying by a logistic value distributes over any sum of two extended reals. -/
theorem logistic_mul_add (z g c : EReal) :
    Ideal.logistic z * (g + c) = Ideal.logistic z * g + Ideal.logistic z * c :=
  EReal.left_distrib_of_nonneg_of_ne_top (logistic_nonneg z) (logistic_ne_top z) g c

/-- The same with the logistic value on the right. -/
theorem add_mul_logistic (z g c : EReal) :
    (g + c) * Ideal.logistic z = g * Ideal.logistic z + c * Ideal.logistic z := by
  rw [mul_comm, logistic_mul_add, mul_comm (Ideal.logistic z) g, mul_comm (Ideal.logistic z) c]

/-- 1 / (1 + exp (-z)), in the host's operations with the f32 literal one, is the logistic function on every extended real. -/
theorem hostSigmoid_eq_logistic (z : Ideal .f32) :
    FloatOps.hostDivf (F := Ideal) (φ := .f32) (FloatOps.ofBits .f32 0x3F800000#32)
      (FloatOps.addf (FloatOps.ofBits .f32 0x3F800000#32) (FloatOps.hostUnary .exp (FloatOps.hostNegf z))) = Ideal.logistic z := by
  rw [Ideal.ofBits_def, Ideal.ofBits_one_f32]
  rfl

end LibLogistic

end
-- ==== Proof.Spec.lean ====
/-
  The LSTM cell both programs compute, as functions of the six argument arrays on the extended reals, index by index.

  For batch row `r` and gate column `j` the pre-activation is
      gate r j = (Σ_k x[r,k] · Wx[k,j] + Σ_k h[r,k] · Wh[k,j]) + b[j].
  Columns 0 … 1023 feed the candidate (tanh), columns 1024 … 2047 the input gate (logistic); the remaining 2048 columns are
  never read. With  g = tanh (gate r q)  and  s = logistic (gate r (1024 + q))  the new cell state is
      c' = g · s + s · c[r,q]            (the reference's arrangement)
         = s · (g + c[r,q])              (the kernel's arrangement)
  and the new hidden state is  h' = tanh c' · s.

  The two arrangements agree on ALL extended reals: `logistic` only takes values in [0, 1] — it is 0 at -∞, 1 at +∞ and
  (1 + e^(-x))⁻¹ on the reals — and multiplication by a finite non-negative extended real distributes over every sum, the
  ones with infinite or opposite-infinite terms included (Proof/LibLogistic.lean). So nothing about the inputs' finiteness is used.
-/
import Idealize.ShloMosaic.PureOps.Ideal
import Idealize.ShloMosaic.Lib.ValueIdx
import proofs.«166895_j44865228374504_1_alg».proof.Proof.LibLogistic

noncomputable section

open scoped BigOperators

namespace Cert.Lstm

open Idealize.ShloMosaic Idealize.ShloMosaic.ValueIdx

/-- Gating a sum is the sum of the gated terms, in the reference's order of factors: for s = logistic z and ANY extended
    reals g, c (no finiteness), s · (g + c) = g · s + s · c. -/
theorem gate_distrib (z g c : EReal) :
    Ideal.logistic z * (g + c) = g * Ideal.logistic z + Ideal.logistic z * c := by
  rw [LibLogistic.logistic_mul_add, mul_comm (Ideal.logistic z) g]

/-- Gate column of the candidate for hidden unit `q`. -/
abbrev colG (q : Fin 1024) : Fin 4096 := ⟨q.val, by have := q.isLt; omega⟩
/-- Gate column of the input gate for hidden unit `q`. -/
abbrev colI (q : Fin 1024) : Fin 4096 := ⟨1024 + q.val, by have := q.isLt; omega⟩

variable (X : (⟨2, ![8192, 512]⟩ : Shape).Idx → EReal) (H C : (⟨2, ![8192, 1024]⟩ : Shape).Idx → EReal)
  (WX : (⟨2, ![512, 4096]⟩ : Shape).Idx → EReal) (WH : (⟨2, ![1024, 4096]⟩ : Shape).Idx → EReal)
  (B : (⟨1, ![4096]⟩ : Shape).Idx → EReal)

/-- The pre-activation of gate column `j` for batch row `r`: x·Wx + h·Wh + b. -/
def gate (r : Fin 8192) (j : Fin 4096) : EReal :=
  ((∑ k : Fin 512, X (ix2 r k) * WX (ix2 k j)) + ∑ k : Fin 1024, H (ix2 r k) * WH (ix2 k j)) + B (ix1 j)

/-- The new cell state, in the reference's arrangement. -/
def cellNew : (⟨2, ![8192, 1024]⟩ : Shape).Idx → EReal := fun i =>
  Ideal.tanh (gate X H WX WH B (i 0) (colG (i 1))) * Ideal.logistic (gate X H WX WH B (i 0) (colI (i 1)))
    + Ideal.logistic (gate X H WX WH B (i 0) (colI (i 1))) * C i

/-- The new hidden state. -/
def hiddenNew : (⟨2, ![8192, 1024]⟩ : Shape).Idx → EReal := fun i =>
  Ideal.tanh (cellNew X H C WX WH B i) * Ideal.logistic (gate X H WX WH B (i 0) (colI (i 1)))

/-- The kernel's arrangement of the new cell state is the reference's. -/
theorem cellNew_gated (i : (⟨2, ![8192, 1024]⟩ : Shape).Idx) :
    Ideal.logistic (gate X H WX WH B (i 0) (colI (i 1))) * (Ideal.tanh (gate X H WX WH B (i 0) (colG (i 1))) + C i)
      = cellNew X H C WX WH B i :=
  gate_distrib _ _ _

end Cert.Lstm

end
-- ==== Proof.BlockReads.lean ====
/-
  The blocks a grid point is given, read back to the arguments.  Point t of the 16 is given rows 512·t … 512·t + 511 of x, of h and
  of c, and — at every point — the whole left halves of Wx and Wh and the first 2048 bias entries.  So the gate block's entry (p, j)
  at point t is the specified pre-activation of row 512·t + p, column j.
-/
import proofs.«166895_j44865228374504_1_alg».proof.Proof.HostPrefix
import proofs.«166895_j44865228374504_1_alg».proof.Proof.PointBlocks
import proofs.«166895_j44865228374504_1_alg».proof.Proof.Spec

noncomputable section

open scoped BigOperators

namespace Cert.Lstm.Kern

open Cert.KernelIdeal Cert.KernelIdeal.Gen Idealize.ShloMosaic Idealize.ShloMosaic.TcCoe
open Idealize.ShloMosaic.ValueIdx Idealize.SL.Sem Cert.Lstm

variable (m : (ℓ : Loc nD τ sig) → Buf (Elt Ideal) ℓ)

/-- The printed index maps over the 16 grid points: the three batch-blocked inputs and the two outputs take block row t, the
    weights and the bias row stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row p of point t's block of x is row 512·t + p of x. -/
theorem blk_x (c : Dev nD) (t : Fin cfg0.N) (p : Fin 512) (k : Fin 512) (r : Fin 8192) (hr : r.val = 512 * t.val + p.val) :
    (iblk m c 0 t : Vec Ideal S512x512 .bf16) (ix2 p k)
      = (m ((c : Thread nD τ).loc main_arg0) : S8192x512.Idx → EReal) (ix2 r k) := by
  obtain ⟨h0, h1, -⟩ := idx_facts t
  unfold iblk
  rw [View.read_apply]
  have he : ((cfg0.win 0).blk t).view.emb (ix2 p k) = (ix2 r k : S8192x512.Idx) := by
    funext a; apply Fin.ext
    match a with
    | ⟨0, _⟩ => show win0_0.index t (0 : Fin 2) * 512 + 1 * p.val = r.val; rw [h0, hr]; omega
    | ⟨1, _⟩ => show win0_0.index t (1 : Fin 2) * 512 + 1 * k.val = k.val; rw [h1]; omega
  refine (congrArg (V m c main_v6 : S8192x512.Idx → EReal) he).trans ?_
  rw [entry_x]

/-- Row p of point t's block of h is row 512·t + p of h. -/
theorem blk_h (c : Dev nD) (t : Fin cfg0.N) (p : Fin 512) (k : Fin 1024) (r : Fin 8192) (hr : r.val = 512 * t.val + p.val) :
    (iblk m c 1 t : Vec Ideal S512x1024 .bf16) (ix2 p k)
      = (m ((c : Thread nD τ).loc main_arg1) : S8192x1024.Idx → EReal) (ix2 r k) := by
  obtain ⟨-, -, h0, h1, -⟩ := idx_facts t
  unfold iblk
  rw [View.read_apply]
  have he : ((cfg0.win 1).blk t).view.emb (ix2 p k) = (ix2 r k : S8192x1024.Idx) := by
    funext a; apply Fin.ext
    match a with
    | ⟨0, _⟩ => show win0_1.index t (0 : Fin 2) * 512 + 1 * p.val = r.val; rw [h0, hr]; omega
    | ⟨1, _⟩ => show win0_1.index t (1 : Fin 2) * 1024 + 1 * k.val = k.val; rw [h1]; omega
  refine (congrArg (V m c main_v7 : S8192x1024.Idx → EReal) he).trans ?_
  rw [entry_h]

/-- Row p of point t's block of c is row 512·t + p of c. -/
theorem blk_c (c : Dev nD) (t : Fin cfg0.N) (p : Fin 512) (q : Fin 1024) (r : Fin 8192) (hr : r.val = 512 * t.val + p.val) :
    (iblk m c 2 t : Vec Ideal S512x1024 .f32) (ix2 p q)
      = (m ((c : Thread nD τ).loc main_arg2) : S8192x1024.Idx → EReal) (ix2 r q) := by
  obtain ⟨-, -, -, -, h0, h1, -⟩ := idx_facts t
  unfold iblk
  rw [View.read_apply]
  have he : ((cfg0.win 2).blk t).view.emb (ix2 p q) = (ix2 r q : S8192x1024.Idx) := by
    funext a; apply Fin.ext
    match a with
    | ⟨0, _⟩ => show win0_2.index t (0 : Fin 2) * 512 + 1 * p.val = r.val; rw [h0, hr]; omega
    | ⟨1, _⟩ => show win0_2.index t (1 : Fin 2) * 1024 + 1 * q.val = q.val; rw [h1]; omega
  refine (congrArg (V m c main_arg2 : S8192x1024.Idx → EReal) he).trans ?_
  rw [V_main_arg2]

/-- Every point's block of the input weights is the left half of Wx. -/
theorem blk_wx (c : Dev nD) (t : Fin cfg0.N) (k : Fin 512) (j : Fin 2048) (j' : Fin 4096) (hj : j'.val = j.val) :
    (iblk m c 3 t : Vec Ideal S512x2048 .bf16) (ix2 k j)
      = (m ((c : Thread nD τ).loc main_arg3) : S512x4096.Idx → EReal) (ix2 k j') := by
  obtain ⟨-, -, -, -, -, -, h0, h1, -⟩ := idx_facts t
  unfold iblk
  rw [View.read_apply]
  have he : ((cfg0.win 3).blk t).view.emb (ix2 k j) = (ix2 k j : S512x2048.Idx) := by
    funext a; apply Fin.ext
    match a with
    | ⟨0, _⟩ => show win0_3.index t (0 : Fin 2) * 512 + 1 * k.val = k.val; rw [h0]; omega
    | ⟨1, _⟩ => show win0_3.index t (1 : Fin 2) * 2048 + 1 * j.val = j.val; rw [h1]; omega
  refine (congrArg (V m c main_v1 : S512x2048.Idx → EReal) he).trans ?_
  exact entry_wx m c k j j' hj

/-- Every point's block of the recurrent weights is the left half of Wh. -/
theorem blk_wh (c : Dev nD) (t : Fin cfg0.N) (k : Fin 1024) (j : Fin 2048) (j' : Fin 4096) (hj : j'.val = j.val) :
    (iblk m c 4 t : Vec Ideal S1024x2048 .bf16) (ix2 k j)
      = (m ((c : Thread nD τ).loc main_arg4) : S1024x4096.Idx → EReal) (ix2 k j') := by
  obtain ⟨-, -, -, -, -, -, -, -, h0, h1, -⟩ := idx_facts t
  unfold iblk
  rw [View.read_apply]
  have he : ((cfg0.win 4).blk t).view.emb (ix2 k j) = (ix2 k j : S1024x2048.Idx) := by
    funext a; apply Fin.ext
    match a with
    | ⟨0, _⟩ => show win0_4.index t (0 : Fin 2) * 1024 + 1 * k.val = k.val; rw [h0]; omega
    | ⟨1, _⟩ => show win0_4.index t (1 : Fin 2) * 2048 + 1 * j.val = j.val; rw [h1]; omega
  refine (congrArg (V m c main_v3 : S1024x2048.Idx → EReal) he).trans ?_
  exact entry_wh m c k j j' hj

/-- Every point's bias row holds the first 2048 bias entries. -/
theorem blk_b (c : Dev nD) (t : Fin cfg0.N) (j : Fin 2048) (j' : Fin 4096) (hj : j'.val = j.val) :
    (iblk m c 5 t : Vec Ideal S1x2048 .f32) (ix2 (0 : Fin 1) j)
      = (m ((c : Thread nD τ).loc main_arg5) : S4096.Idx → EReal) (ix1 j') := by
  obtain ⟨-, -, -, -, -, -, -, -, -, -, h0, h1, -⟩ := idx_facts t
  unfold iblk
  rw [View.read_apply]
  have he : ((cfg0.win 5).blk t).view.emb (ix2 (0 : Fin 1) j) = (ix2 (0 : Fin 1) j : S1x2048.Idx) := by
    funext a; apply Fin.ext
    match a with
    | ⟨0, _⟩ => show win0_5.index t (0 : Fin 2) * 1 + 1 * (0 : Fin 1).val = (0 : Fin 1).val; rw [h0]; rfl
    | ⟨1, _⟩ => show win0_5.index t (1 : Fin 2) * 2048 + 1 * j.val = j.val; rw [h1]; omega
  refine (congrArg (V m c main_v5 : S1x2048.Idx → EReal) he).trans ?_
  exact entry_b m c j j' hj

/-- The gate block's entry (p, j) at point t is the specified pre-activation of row 512·t + p, column j. -/
theorem gate_of_blocks (c : Dev nD) (t : Fin cfg0.N) (p : Fin 512) (r : Fin 8192) (hr : r.val = 512 * t.val + p.val)
    (j : Fin 2048) (j' : Fin 4096) (hj : j'.val = j.val) :
    blockGate (iblk m c 0 t) (iblk m c 1 t) (iblk m c 3 t) (iblk m c 4 t) (iblk m c 5 t) p j
      = gate (m ((c : Thread nD τ).loc main_arg0)) (m ((c : Thread nD τ).loc main_arg1)) (m ((c : Thread nD τ).loc main_arg3))
          (m ((c : Thread nD τ).loc main_arg4)) (m ((c : Thread nD τ).loc main_arg5)) r j' := by
  unfold blockGate gate
  refine congrArg₂ (· + ·) (congrArg₂ (· + ·) (Finset.sum_congr rfl fun k _ => ?_) (Finset.sum_congr rfl fun k _ => ?_)) ?_
  · exact congrArg₂ (· * ·) (blk_x m c t p k r hr) (blk_wx m c t k j j' hj)
  · exact congrArg₂ (· * ·) (blk_h m c t p k r hr) (blk_wh m c t k j j' hj)
  · exact blk_b m c t j j' hj

end Cert.Lstm.Kern

end
-- ==== Proof.KernelValue.lean ====
/-
  The kernel's two result arrays.  Grid point t writes rows 512·t … 512·t + 511 of each result; by the block lemmas those rows hold
  the specified new hidden state and new cell state of the arguments (the kernel's gated sum  s · (g + c)  being the reference's
  g · s + s · c), and the 16 row blocks tile the [8192, 1024] arrays, so after the run each result array IS the specified function of
  the arguments.
-/
import proofs.«166895_j44865228374504_1_alg».proof.Proof.BlockReads
import proofs.«166895_j44865228374504_1_alg».proof.Proof.Gen.KernelIdeal.Value

noncomputable section

namespace Cert.Lstm.Kern

open Cert.KernelIdeal Cert.KernelIdeal.Gen Idealize.ShloMosaic Idealize.ShloMosaic.TcCoe
open Idealize.ShloMosaic.ValueIdx Idealize.SL.Sem Cert.Lstm
open Idealize.ShloMosaic.Pipeline (Dat)

variable (m : (ℓ : Loc nD τ sig) → Buf (Elt Ideal) ℓ) (ρ : Dev nD → PrngReg)

/-- The specified new cell state of core `c`'s arguments as launched. -/
abbrev cellOf (c : Dev nD) : S8192x1024.Idx → EReal :=
  cellNew (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The specified new hidden state of core `c`'s arguments as launched. -/
abbrev hiddenOf (c : Dev nD) : S8192x1024.Idx → EReal :=
  hiddenNew (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What point t writes back to the cell result is block t of the specified new cell state. -/
theorem flushed_cell (c : Dev nD) (t : Fin cfg0.N) :
    (dats m 0 c).flushed 7 t = ((cfg0.win 7).blk t).view.read (Elt Ideal) (cellOf m c) := by
  rw [Value.flushed7]
  funext y
  obtain ⟨p, q, rfl⟩ : ∃ (p : Fin 512) (q : Fin 1024), y = ix2 p q := ⟨y 0, y 1, eq_ix2 y⟩
  have hN : cfg0.N = 16 := N_0
  have ht : t.val < cfg0.N := t.isLt
  have hr : 512 * t.val + p.val < 8192 := by have := p.isLt; omega
  have he : ((cfg0.win 7).blk t).view.emb (ix2 p q) = (ix2 (⟨512 * t.val + p.val, hr⟩ : Fin 8192) q : S8192x1024.Idx) := by
    have h0 : win0_7.index t (0 : Fin 2) = t.val := (idx_facts t).2.2.2.2.2.2.2.2.2.2.2.2.2.2.1
    have h1 : win0_7.index t (1 : Fin 2) = 0 := (idx_facts t).2.2.2.2.2.2.2.2.2.2.2.2.2.2.2
    funext a; apply Fin.ext
    match a with
    | ⟨0, _⟩ => show win0_7.index t (0 : Fin 2) * 512 + 1 * p.val = 512 * t.val + p.val; rw [h0]; omega
    | ⟨1, _⟩ => show win0_7.index t (1 : Fin 2) * 1024 + 1 * q.val = q.val; rw [h1]; omega
  rw [View.read_apply, he]
  show out0_7 (iblk m c 0 t) (iblk m c 1 t) (iblk m c 2 t) (iblk m c 3 t) (iblk m c 4 t) (iblk m c 5 t) (ix2 p q) = _
  refine (cell_block_apply (iblk m c 0 t) (iblk m c 1 t) (iblk m c 2 t) (iblk m c 3 t) (iblk m c 4 t) (iblk m c 5 t) p q).trans ?_
  rw [gate_of_blocks m c t p ⟨512 * t.val + p.val, hr⟩ rfl (bcolI q) (colI q) (Nat.add_comm _ _),
    gate_of_blocks m c t p ⟨512 * t.val + p.val, hr⟩ rfl (bcolG q) (colG q) rfl,
    blk_c m c t p q ⟨512 * t.val + p.val, hr⟩ rfl]
  exact cellNew_gated _ _ _ _ _ _ (ix2 (⟨512 * t.val + p.val, hr⟩ : Fin 8192) q)

/-- What point t writes back to the hidden result is block t of the specified new hidden state. -/
theorem flushed_hidden (c : Dev nD) (t : Fin cfg0.N) :
    (dats m 0 c).flushed 6 t = ((cfg0.win 6).blk t).view.read (Elt Ideal) (hiddenOf m c) := by
  rw [Value.flushed6]
  funext y
  obtain ⟨p, q, rfl⟩ : ∃ (p : Fin 512) (q : Fin 1024), y = ix2 p q := ⟨y 0, y 1, eq_ix2 y⟩
  have hN : cfg0.N = 16 := N_0
  have ht : t.val < cfg0.N := t.isLt
  have hr : 512 * t.val + p.val < 8192 := by have := p.isLt; omega
  have he : ((cfg0.win 6).blk t).view.emb (ix2 p q) = (ix2 (⟨512 * t.val + p.val, hr⟩ : Fin 8192) q : S8192x1024.Idx) := by
    have h0 : win0_6.index t (0 : Fin 2) = t.val := (idx_facts t).2.2.2.2.2.2.2.2.2.2.2.2.1
    have h1 : win0_6.index t (1 : Fin 2) = 0 := (idx_facts t).2.2.2.2.2.2.2.2.2.2.2.2.2.1
    funext a; apply Fin.ext
    match a with
    | ⟨0, _⟩ => show win0_6.index t (0 : Fin 2) * 512 + 1 * p.val = 512 * t.val + p.val; rw [h0]; omega
    | ⟨1, _⟩ => show win0_6.index t (1 : Fin 2) * 1024 + 1 * q.val = q.val; rw [h1]; omega
  rw [View.read_apply, he]
  show out0_6 (iblk m c 0 t) (iblk m c 1 t) (iblk m c 2 t) (iblk m c 3 t) (iblk m c 4 t) (iblk m c 5 t) (ix2 p q) = _
  refine (hidden_block_apply (iblk m c 0 t) (iblk m c 1 t) (iblk m c 2 t) (iblk m c 3 t) (iblk m c 4 t) (iblk m c 5 t) p q).trans ?_
  rw [gate_of_blocks m c t p ⟨512 * t.val + p.val, hr⟩ rfl (bcolI q) (colI q) (Nat.add_comm _ _),
    gate_of_blocks m c t p ⟨512 * t.val + p.val, hr⟩ rfl (bcolG q) (colG q) rfl,
    blk_c m c t p q ⟨512 * t.val + p.val, hr⟩ rfl]
  rw [cellNew_gated _ _ _ _ _ _ (ix2 (⟨512 * t.val + p.val, hr⟩ : Fin 8192) q)]
  rfl

/-- The 16 row blocks tile the [8192, 1024] array: row r lies in block r / 512. -/
theorem cover_cell (i : S8192x1024.Idx) : ∃ t : Fin cfg0.N, (cfg0.win 7).flush t = true ∧ i ∈ ((cfg0.win 7).blk t).view.set := by
  have hi0 : (i 0).val < 8192 := idx2_lt0 i
  have hi1 : (i 1).val < 1024 := idx2_lt1 i
  have hlt : (i 0).val / 512 < cfg0.N := by show _ < grid0.N; rw [N_0]; omega
  have h0 : win0_7.index ⟨(i 0).val / 512, hlt⟩ (0 : Fin 2) = (i 0).val / 512 := (idx_facts ⟨(i 0).val / 512, hlt⟩).2.2.2.2.2.2.2.2.2.2.2.2.2.2.1
  have h1 : win0_7.index ⟨(i 0).val / 512, hlt⟩ (1 : Fin 2) = 0 := (idx_facts ⟨(i 0).val / 512, hlt⟩).2.2.2.2.2.2.2.2.2.2.2.2.2.2.2
  refine ⟨⟨(i 0).val / 512, hlt⟩, flush0_7 _, ?_⟩
  show i ∈ ((View.whole main_v8_1).slice (win0_7.rect ⟨(i 0).val / 512, hlt⟩)).set
  rw [View.set_slice_whole, Rect.mem_set_unit]
  intro a
  match a with
  | ⟨0, _⟩ =>
    show win0_7.index ⟨(i 0).val / 512, hlt⟩ (0 : Fin 2) * 512 ≤ (i 0).val
      ∧ (i 0).val < win0_7.index ⟨(i 0).val / 512, hlt⟩ (0 : Fin 2) * 512 + 512
    rw [h0]; omega
  | ⟨1, _⟩ =>
    show win0_7.index ⟨(i 0).val / 512, hlt⟩ (1 : Fin 2) * 1024 ≤ (i 1).val
      ∧ (i 1).val < win0_7.index ⟨(i 0).val / 512, hlt⟩ (1 : Fin 2) * 1024 + 1024
    rw [h1]; omega

/-- The 16 row blocks tile the [8192, 1024] array: row r lies in block r / 512. -/
theorem cover_hidden (i : S8192x1024.Idx) : ∃ t : Fin cfg0.N, (cfg0.win 6).flush t = true ∧ i ∈ ((cfg0.win 6).blk t).view.set := by
  have hi0 : (i 0).val < 8192 := idx2_lt0 i
  have hi1 : (i 1).val < 1024 := idx2_lt1 i
  have hlt : (i 0).val / 512 < cfg0.N := by show _ < grid0.N; rw [N_0]; omega
  have h0 : win0_6.index ⟨(i 0).val / 512, hlt⟩ (0 : Fin 2) = (i 0).val / 512 := (idx_facts ⟨(i 0).val / 512, hlt⟩).2.2.2.2.2.2.2.2.2.2.2.2.1
  have h1 : win0_6.index ⟨(i 0).val / 512, hlt⟩ (1 : Fin 2) = 0 := (idx_facts ⟨(i 0).val / 512, hlt⟩).2.2.2.2.2.2.2.2.2.2.2.2.2.1
  refine ⟨⟨(i 0).val / 512, hlt⟩, flush0_6 _, ?_⟩
  show i ∈ ((View.whole main_v8_0).slice (win0_6.rect ⟨(i 0).val / 512, hlt⟩)).set
  rw [View.set_slice_whole, Rect.mem_set_unit]
  intro a
  match a with
  | ⟨0, _⟩ =>
    show win0_6.index ⟨(i 0).val / 512, hlt⟩ (0 : Fin 2) * 512 ≤ (i 0).val
      ∧ (i 0).val < win0_6.index ⟨(i 0).val / 512, hlt⟩ (0 : Fin 2) * 512 + 512
    rw [h0]; omega
  | ⟨1, _⟩ =>
    show win0_6.index ⟨(i 0).val / 512, hlt⟩ (1 : Fin 2) * 1024 ≤ (i 1).val
      ∧ (i 1).val < win0_6.index ⟨(i 0).val / 512, hlt⟩ (1 : Fin 2) * 1024 + 1024
    rw [h1]; omega

/-- After the run the cell result array is the specified new cell state. -/
theorem final_cell (c : Dev nD) : (dats m 0 c).arrAt 7 cfg0.N = cellOf m c :=
  (dats m 0 c).arrAt_eq_of_cover 7 (cellOf m c) (fun t _ => flushed_cell m c t) cover_cell

/-- After the run the hidden result array is the specified new hidden state. -/
theorem final_hidden (c : Dev nD) : (dats m 0 c).arrAt 6 cfg0.N = hiddenOf m c :=
  (dats m 0 c).arrAt_eq_of_cover 6 (hiddenOf m c) (fun t _ => flushed_hidden m c t) cover_hidden

/-- The kernel's run, read: both results at the specified functions of the arguments, the arguments unchanged. -/
theorem run : θ_run defs (onTc (τ := τ) (main (F := Ideal))) ⟨m, fun _ => 0, ρ⟩ fun r => ∀ c : Dev nD,
      r.2.mem ((c : Thread nD τ).loc main_v8_0) = hiddenOf m c
      ∧ r.2.mem ((c : Thread nD τ).loc main_v8_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final_hidden m c), (h c).2.1.trans (final_cell m c), (h c).2.2⟩)
    (Value.run_blocks m ρ)

end Cert.Lstm.Kern

end
-- ==== Proof.RefSpec.lean ====
/-
  The reference computes the specified cell.  Its gates are ONE [8192, 4096] array: two matrix products added, then the bias
  broadcast along the rows; its candidate and input gate are the column ranges 0 … 1023 and 1024 … 2047 of that array; its
  logistic is spelt 1 / (1 + exp (-z)), which on the extended reals is the logistic function itself (the literal is the real 1).
-/
import proofs.«166895_j44865228374504_1_alg».proof.Proof.Gen.ReferenceIdeal.Read
import proofs.«166895_j44865228374504_1_alg».proof.Proof.Spec
import Idealize.ShloMosaic.Lib.IdealHost

noncomputable section

open scoped BigOperators

namespace Cert.Lstm.Ref

open Cert.ReferenceIdeal Cert.ReferenceIdeal.Read Idealize.ShloMosaic Idealize.ShloMosaic.ValueIdx Cert.Lstm

variable (x0 : (⟨S8192x512, .f32⟩ : BufTy).Contents (Elt Ideal)) (x1 x2 : (⟨S8192x1024, .f32⟩ : BufTy).Contents (Elt Ideal))
  (x3 : (⟨S512x4096, .f32⟩ : BufTy).Contents (Elt Ideal)) (x4 : (⟨S1024x4096, .f32⟩ : BufTy).Contents (Elt Ideal))
  (x5 : (⟨S4096, .f32⟩ : BufTy).Contents (Elt Ideal))

/-- The reference's gate array at row `r`, column `j` is the specified pre-activation. -/
theorem gates_apply (r : Fin 8192) (j : Fin 4096) :
    val_main_v5 (F := Ideal) x0 x1 x3 x4 x5 (ix2 r j) = gate x0 x1 x3 x4 x5 r j := by
  rw [val_main_v5_apply, val_main_v2_apply, val_main_v0_apply, val_main_v1_apply, val_main_v4_apply, val_main_v3_apply]
  have e0l : ∀ k, lidx_main_v0 (ix2 r j) k = ix2 r k := fun k => funext fun a => by
    match a with | ⟨0, _⟩ => rfl | ⟨1, _⟩ => rfl
  have e0r : ∀ k, ridx_main_v0 (ix2 r j) k = ix2 k j := fun k => funext fun a => by
    match a with | ⟨0, _⟩ => rfl | ⟨1, _⟩ => rfl
  have e1l : ∀ k, lidx_main_v1 (ix2 r j) k = ix2 r k := fun k => funext fun a => by
    match a with | ⟨0, _⟩ => rfl | ⟨1, _⟩ => rfl
  have e1r : ∀ k, ridx_main_v1 (ix2 r j) k = ix2 k j := fun k => funext fun a => by
    match a with | ⟨0, _⟩ => rfl | ⟨1, _⟩ => rfl
  have eb : idx_main_v3 (idx_main_v4 (ix2 r j)) = ix1 j := funext fun a => by
    match a with | ⟨0, _⟩ => rfl
  simp only [e0l, e0r, e1l, e1r, eb]
  rfl

/-- The candidate's column range of the gate array. -/
theorem cand_idx (r : Fin 8192) (q : Fin 1024) : idx_main_v6 (ix2 r q) = ix2 r (colG q) := funext fun a => by
  match a with | ⟨0, _⟩ => rfl | ⟨1, _⟩ => rfl

/-- The input gate's column range of the gate array. -/
theorem ingate_idx (r : Fin 8192) (q : Fin 1024) : idx_main_v7 (ix2 r q) = ix2 r (colI q) := funext fun a => by
  match a with | ⟨0, _⟩ => rfl | ⟨1, _⟩ => rfl

/-- The reference's second result is the specified new cell state. -/
theorem cell_eq : val_main_v31 (F := Ideal) x0 x1 x2 x3 x4 x5 = cellNew x0 x1 x2 x3 x4 x5 := by
  funext i
  obtain ⟨r, q, rfl⟩ : ∃ (r : Fin 8192) (q : Fin 1024), i = ix2 r q := ⟨i 0, i 1, eq_ix2 i⟩
  rw [val_main_v31_apply, val_main_v29_apply, val_main_v30_apply, val_main_v10_apply, val_main_v6_apply,
    val_main_v16_apply, val_main_v15_apply, val_main_cst_0_apply, val_main_v14_apply, val_main_v13_apply, val_main_cst_apply,
    val_main_v12_apply, val_main_v11_apply, val_main_v7_apply,
    val_main_v22_apply, val_main_v21_apply, val_main_cst_2_apply, val_main_v20_apply, val_main_v19_apply, val_main_cst_1_apply,
    val_main_v18_apply, val_main_v17_apply, val_main_v7_apply,
    LibLogistic.hostSigmoid_eq_logistic, cand_idx, ingate_idx, gates_apply, gates_apply]
  rfl

/-- The reference's first result is the specified new hidden state. -/
theorem hidden_eq : val_main_v33 (F := Ideal) x0 x1 x2 x3 x4 x5 = hiddenNew x0 x1 x2 x3 x4 x5 := by
  funext i
  obtain ⟨r, q, rfl⟩ : ∃ (r : Fin 8192) (q : Fin 1024), i = ix2 r q := ⟨i 0, i 1, eq_ix2 i⟩
  rw [val_main_v33_apply, val_main_v32_apply, cell_eq,
    val_main_v28_apply, val_main_v27_apply, val_main_cst_4_apply, val_main_v26_apply, val_main_v25_apply, val_main_cst_3_apply,
    val_main_v24_apply, val_main_v23_apply, val_main_v7_apply,
    LibLogistic.hostSigmoid_eq_logistic, ingate_idx, gates_apply]
  rfl

end Cert.Lstm.Ref

end
-- ==== Proof.lean ====
/-
  An LSTM cell in which all three logistic gates read the input-gate pre-activation.  For batch row r and hidden unit q, with
      z(r, j) = (Σ_k x[r,k] · Wx[k,j] + Σ_k h[r,k] · Wh[k,j]) + b[j],     g = tanh z(r, q),     s = logistic z(r, 1024 + q),
  the reference returns  c' = g · s + s · c[r,q]  and  h' = tanh c' · s.  The kernel computes only the 2048 gate columns that are
  read, sixteen blocks of 512 batch rows at a time, and forms  c' = s · (g + c[r,q]).

  On the extended reals the two agree at every input: a matrix product into a zero accumulator is the plain sum over the contracted
  axis, a rounding to bf16 is the identity, the reference's 1 / (1 + exp (-z)) is the logistic function, and because the logistic
  function only takes values in [0, 1] — finite and non-negative — multiplying by it distributes over every sum of extended reals
  (Proof/LibLogistic.lean).  The inputs' finiteness is therefore never used.

  Proof/Spec.lean states the cell as functions of the six arguments; Proof/RefSpec.lean shows the reference's two results are those
  functions; Proof/Gates.lean, PointBlocks.lean, HostPrefix.lean and BlockReads.lean read one grid point's blocks; Proof/KernelValue.lean
  assembles the kernel's two result arrays.  No operation of the kernel is rewritten when it is read on the extended reals — that
  reading is the kernel's own text — so the fourth conjunct is trivial.
-/
import proofs.«166895_j44865228374504_1_alg».proof.Defs
import proofs.«166895_j44865228374504_1_alg».proof.Proof.Gen.Kernel
import proofs.«166895_j44865228374504_1_alg».proof.Proof.Gen.Kernel.Frame
import proofs.«166895_j44865228374504_1_alg».proof.Proof.Gen.KernelIdeal
import proofs.«166895_j44865228374504_1_alg».proof.Proof.Gen.KernelIdeal.Frame
import proofs.«166895_j44865228374504_1_alg».proof.Proof.Gen.KernelIdeal.Value
import proofs.«166895_j44865228374504_1_alg».proof.Proof.Gen.ReferenceIdeal
import proofs.«166895_j44865228374504_1_alg».proof.Proof.Gen.ReferenceIdeal.Run
import proofs.«166895_j44865228374504_1_alg».proof.Proof.Gen.ReferenceIdeal.Read
import proofs.«166895_j44865228374504_1_alg».proof.Proof.Gen.Pre_finite_inputs
import proofs.«166895_j44865228374504_1_alg».proof.Proof.KernelValue
import proofs.«166895_j44865228374504_1_alg».proof.Proof.RefSpec
import Idealize.ShloMosaic.Adequacy
import Idealize.ShloMosaic.Init

noncomputable section

namespace Cert.Proof

open Idealize.ShloMosaic Idealize.SL.Sem

/-- The word-level kernel runs to the end and leaves its arguments alone. -/
theorem frame_kernel : Cert.frame_Kernel := fun m ρ _ => Cert.Kernel.Gen.frame m ρ

/-- So does the kernel on the extended reals. -/
theorem frame_kernelIdeal : Cert.frame_KernelIdeal := fun m ρ _ => Cert.KernelIdeal.Gen.frame m ρ

/-- So does the reference: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- On the extended reals both programs end with the specified new hidden state and new cell state of the arguments. -/
theorem algebraic : Cert.algebraic_KernelIdeal_ReferenceIdeal := by
  intro m ρ m' ρ' _ hagree
  refine ⟨fun c => Cert.Lstm.Kern.hiddenOf m c, fun c => Cert.Lstm.Kern.cellOf m c, Cert.Lstm.Kern.run m ρ, ?_⟩
  refine (θ_run Cert.ReferenceIdeal.defs _ _).mono (fun _ h c => ⟨?_, ?_, (h c).2.2⟩)
    (Cert.ReferenceIdeal.Value.run (F := Ideal) m' ρ')
  · obtain ⟨e0, e1, e2, e3, e4, e5⟩ := hagree c
    rw [(h c).1, Cert.ReferenceIdeal.Read.val_main_v33_eq, Cert.Lstm.Ref.hidden_eq, e0, e1, e2, e3, e4, e5]
  · obtain ⟨e0, e1, e2, e3, e4, e5⟩ := hagree c
    rw [(h c).2.1, Cert.ReferenceIdeal.Read.val_main_v31_eq, Cert.Lstm.Ref.cell_eq, e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
